-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)) →
    ∃ (v0 : (c : Dev Cert.KernelIdeal.nD) → Buf (Elt Ideal) ((c.tc : Thread Cert.KernelIdeal.nD Cert.KernelIdeal.τ).loc Cert.KernelIdeal.main_v0)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v0) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v17) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S8192x64 : Shape := ⟨2, ![8192, 64]⟩
abbrev S_ : Shape := ⟨0, ![]⟩

class Facts : Prop where
  bcast_S_S8192x64 : S_.BroadcastsInDim S8192x64 (![] : Fin 0 → Fin S8192x64.rank)
  reducesTo_S8192x64_S_d0_1 : S8192x64.ReducesTo [0, 1] S_
  h_S_ : 0 < S_.numel

variable [Facts]

def fn {F : FTy → Type} [FloatOps F] (main_arg0 : FVec F S8192x64 .f32) : IVec S_ 1 :=
  let main_v0 : FVec F S8192x64 .f32 := Host.absf main_arg0
  let main_cst : FVec F S_ .f32 := constant S_ .f32 0x7F800000#32
  let main_v1 : FVec F S8192x64 .f32 := broadcastInDim S8192x64 ![] bcast_S_S8192x64 main_cst
  let main_v2 : IVec S8192x64 1 := cmpf .olt main_v0 main_v1
  let main_c : IVec S_ 1 := constantI S_ 1 1#1
  let main_v3 : IVec S_ 1 := (fun x v => Host.reduce IntOp.andi x v reducesTo_S8192x64_S_d0_1 h_S_) main_v2 main_c
  main_v3
-- ==== Kernel.lean ====
abbrev S8192x64 : Shape := ⟨2, ![8192, 64]⟩
abbrev S8192x8192 : Shape := ⟨2, ![8192, 8192]⟩
abbrev S1024x1024 : Shape := ⟨2, ![1024, 1024]⟩
abbrev S1024x64 : Shape := ⟨2, ![1024, 64]⟩
abbrev S1024 : Shape := ⟨1, ![1024]⟩
abbrev S1024x1 : Shape := ⟨2, ![1024, 1]⟩
abbrev S64x1024 : Shape := ⟨2, ![64, 1024]⟩
abbrev S1x1024 : Shape := ⟨2, ![1, 1024]⟩

abbrev nBuf : Space → Nat
  | .hbm => 2
  | .vmem => 3
  | .smem => 0
  | _ => 0

abbrev bufTy : (tb : Table) → Fin (tcTables nBuf tb) → BufTy
  | .hbm, ⟨0, _⟩ => ⟨S8192x64, .f32⟩
  | .hbm, ⟨1, _⟩ => ⟨S8192x8192, .f32⟩
  | .local _ .vmem, ⟨0, _⟩ => ⟨S8192x64, .f32⟩
  | .local _ .vmem, ⟨1, _⟩ => ⟨S1024x1024, .f32⟩
  | .local _ .vmem, ⟨2, _⟩ => ⟨S1024x1024, .f32⟩
  | _, _ => ⟨S8192x64, .f32⟩

abbrev bufScoped : (cs : CoreSpace) → Fin (nBuf (.core cs)) → Bool
  | .vmem, ⟨0, _⟩ => true
  | .vmem, ⟨1, _⟩ => true
  | .vmem, ⟨2, _⟩ => true
  | _, _ => false

abbrev semScoped : Fin 0 → Bool
  | ⟨_, h⟩ => absurd h (Nat.not_lt_zero _)

abbrev dmaSemScoped : Fin 3 → Bool
  | ⟨0, _⟩ => true
  | ⟨1, _⟩ => true
  | ⟨2, _⟩ => true
  | _ => false

abbrev sig : RefSig :=
  ofTc nBuf bufTy 0 3 bufScoped semScoped dmaSemScoped tileCredit tileCredit_eq_zero tileCredit_pos

abbrev main_arg0 : Ref sig .tc := ⟨.hbm, 0, rfl⟩
abbrev main_v0 : Ref sig .tc := ⟨.hbm, 1, rfl⟩
abbrev cc0_stg0_0 : Ref sig .tc := ⟨.vmem, 0, rfl⟩
abbrev cc0_stg1_0 : Ref sig .tc := ⟨.vmem, 1, rfl⟩
abbrev cc0_stg1_1 : Ref sig .tc := ⟨.vmem, 2, rfl⟩
abbrev cc0_sem0_0 : DmaSem sig := 0
abbrev cc0_sem1_0 : DmaSem sig := 1
abbrev cc0_sem1_1 : DmaSem sig := 2

abbrev nD : Nat := 1
abbrev τ : Topo := Topo.v7x

variable {F : FTy → Type} [FloatOps F]

abbrev grid0 : Pipeline.Grid := ⟨2, ![8, 8], ![false, false]⟩

def k0_mult1 (i : grid0.Coords) : BitVec 32 :=
  let arg0 : BitVec 32 := BitVec.ofNat 32 (i 0).val
  let c1024_i32 : BitVec 32 := 1024#32
  let v0 : BitVec 32 := Scalar.muli arg0 c1024_i32
  v0
def k0_mult2 (i : grid0.Coords) : BitVec 32 :=
  let arg1 : BitVec 32 := BitVec.ofNat 32 (i 1).val
  let c1024_i32_0 : BitVec 32 := 1024#32
  let v2 : BitVec 32 := Scalar.muli arg1 c1024_i32_0
  v2
def k0_off1 (i : grid0.Coords) : Fin 2 → Nat :=
  let arg0 : BitVec 32 := BitVec.ofNat 32 (i 0).val
  let c1024_i32 : BitVec 32 := 1024#32
  let v0 : BitVec 32 := Scalar.muli arg0 c1024_i32
  let v1 : BitVec 32 := v0
  let v4 : Index := Scalar.indexCast v1
  let c0 : Index := 0#32
  ![v4.toNat, 0]
def k0_off2 (i : grid0.Coords) : Fin 2 → Nat :=
  let arg1 : BitVec 32 := BitVec.ofNat 32 (i 1).val
  let c1024_i32_0 : BitVec 32 := 1024#32
  let v2 : BitVec 32 := Scalar.muli arg1 c1024_i32_0
  let v3 : BitVec 32 := v2
  let v6 : Index := Scalar.indexCast v3
  let c0_1 : Index := 0#32
  ![v6.toNat, 0]
def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage0_0 : Fin 1 → Memref sig .tc .vmem S8192x64 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false, false]

abbrev stage0_1 : Fin 2 → Memref sig .tc .vmem S1024x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

class Facts₀ : Prop where
  h_S1024x64 : 0 < S1024x64.numel
  reduces_S1024x64_S1024 : S1024x64.Reduces [1] S1024
  shapeCasts_S1024_S1024x1 : S1024.ShapeCasts S1024x1
  transposes_S1024x64_p1_0_S64x1024 : S1024x64.Transposes [1, 0] S64x1024
  transposes_S1024x1_p1_0_S1x1024 : S1024x1.Transposes [1, 0] S1x1024
  broadcasts_S1024x1_S1024x1024 : S1024x1.Broadcasts S1024x1024
  broadcasts_S1x1024_S1024x1024 : S1x1024.Broadcasts S1024x1024
  iota_S1024x1024_d0_w32 : S1024x1024.Iotas .tc 32 [0]
  iota_S1024x1024_d1_w32 : S1024x1024.Iotas .tc 32 [1]
  inb_S1024x1024_S1024x1024_0_0 : ∀ a, (![0, 0] : Fin 2 → Nat) a + S1024x1024.size a ≤ S1024x1024.size a
  h_S1024x1024 : 0 < S1024x1024.numel
  dot_S1024x64_S64x1024_S1024x1024_1_0_0_1_n_n_wf : DotDims.WF S1024x64 S64x1024 S1024x1024 [1] [0] [0] [1] [] []
  hrank0 : 0 < grid0.rank
  k0_mult1_dvd : ∀ i : grid0.Coords, 8 ∣ (k0_mult1 i).toNat
  k0_mult2_dvd : ∀ i : grid0.Coords, 8 ∣ (k0_mult2 i).toNat
  k0_off1_inb : ∀ i : grid0.Coords, ∀ a, (k0_off1 i) a + S1024x64.size a ≤ S8192x64.size a
  k0_off2_inb : ∀ i : grid0.Coords, ∀ a, (k0_off2 i) a + S1024x64.size a ≤ S8192x64.size a
  hstage0_0 : ∀ j, (stage0_0 j).IsWhole
  nbuf0_0 : grid0.bufCount reads0_0 true = 1
  hreads0_0 : ∀ i i' : grid0.Coords, (∀ a, reads0_0 a = true → i a = i' a) → cc0_transform_0 i = cc0_transform_0 i'
  hinb0_0 : ∀ (i : grid0.Coords) a, (cc0_transform_0 i a + 1) * S8192x64.size a ≤ S8192x64.size a
  hwx0_0 : ∀ i : grid0.Coords, EltTy.bits .f32 = 32 ∨ (Rect.block (s := S8192x64) S8192x64.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S1024x1024.size a ≤ S8192x8192.size a
  hwx0_1 : ∀ i : grid0.Coords, EltTy.bits .f32 = 32 ∨ (Rect.block (s := S8192x8192) S1024x1024.size (cc0_transform_1 i) (hinb0_1 i)).WholeWords (EltTy.packing .f32)

variable [Facts₀]

def dot_S1024x64_S64x1024_S1024x1024_1_0_0_1_n_n : DotDims S1024x64 S64x1024 S1024x1024 where
  lhsContracting := [1]
  rhsContracting := [0]
  lhsNonContracting := [0]
  rhsNonContracting := [1]
  lhsBatch := []
  rhsBatch := []
  wf := dot_S1024x64_S64x1024_S1024x1024_1_0_0_1_n_n_wf

abbrev win0_0 : Pipeline.Window sig grid0 :=
  Pipeline.Window.ofSpec (Memref.whole main_arg0) S8192x64.size cc0_transform_0 reads0_0 false true 1 stage0_0 sem0_0
    hrank0 hreads0_0 hinb0_0 nbuf0_0 (Memref.isWhole_whole _) hwx0_0 hstage0_0

abbrev win0_1 : Pipeline.Window sig grid0 :=
  Pipeline.Window.ofSpec (Memref.whole main_v0) S1024x1024.size cc0_transform_1 reads0_1 true false 2 stage0_1 sem0_1
    hrank0 hreads0_1 hinb0_1 nbuf0_1 (Memref.isWhole_whole _) hwx0_1 hstage0_1

abbrev win0 : Fin 2 → Pipeline.Window sig grid0 := fun | 0 => win0_0 | 1 => win0_1 | ⟨_ + 2, h⟩ => absurd h (Nat.not_lt.2 (Nat.le_add_left _ _))
abbrev spec0 : Fin 2 → Pipeline.WinSpec sig grid0.rank := fun w => (win0 w).toWinSpec

class Facts : Prop extends Facts₀ where

variable [Facts]
-- ==== ReferenceIdeal.lean ====
abbrev S8192x64 : Shape := ⟨2, ![8192, 64]⟩
abbrev S_ : Shape := ⟨0, ![]⟩
abbrev S8192 : Shape := ⟨1, ![8192]⟩
abbrev S8192x8192 : Shape := ⟨2, ![8192, 8192]⟩
abbrev S8192x1 : Shape := ⟨2, ![8192, 1]⟩
abbrev S1x8192 : Shape := ⟨2, ![1, 8192]⟩

abbrev nBuf : Space → Nat
  | .hbm => 29
  | .vmem => 0
  | .smem => 0
  | _ => 0

abbrev bufTy : (tb : Table) → Fin (tcTables nBuf tb) → BufTy
  | .hbm, ⟨0, _⟩ => ⟨S8192x64, .f32⟩
  | .hbm, ⟨1, _⟩ => ⟨S8192x64, .f32⟩
  | .hbm, ⟨2, _⟩ => ⟨S_, .f32⟩
  | .hbm, ⟨3, _⟩ => ⟨S8192, .f32⟩
  | .hbm, ⟨4, _⟩ => ⟨S8192x8192, .f32⟩
  | .hbm, ⟨5, _⟩ => ⟨S8192x1, .f32⟩
  | .hbm, ⟨6, _⟩ => ⟨S1x8192, .f32⟩
  | .hbm, ⟨7, _⟩ => ⟨S8192x8192, .f32⟩
  | .hbm, ⟨8, _⟩ => ⟨S8192x8192, .f32⟩
  | .hbm, ⟨9, _⟩ => ⟨S8192x8192, .f32⟩
  | .hbm, ⟨10, _⟩ => ⟨S_, .f32⟩
  | .hbm, ⟨11, _⟩ => ⟨S8192x8192, .f32⟩
  | .hbm, ⟨12, _⟩ => ⟨S8192x8192, .f32⟩
  | .hbm, ⟨13, _⟩ => ⟨S8192x8192, .f32⟩
  | .hbm, ⟨14, _⟩ => ⟨S_, .f32⟩
  | .hbm, ⟨15, _⟩ => ⟨S8192x8192, .f32⟩
  | .hbm, ⟨16, _⟩ => ⟨S8192x8192, .f32⟩
  | .hbm, ⟨17, _⟩ => ⟨S_, .f32⟩
  | .hbm, ⟨18, _⟩ => ⟨S8192x8192, .f32⟩
  | .hbm, ⟨19, _⟩ => ⟨S8192x8192, .i1⟩
  | .hbm, ⟨20, _⟩ => ⟨S_, .f32⟩
  | .hbm, ⟨21, _⟩ => ⟨S_, .f32⟩
  | .hbm, ⟨22, _⟩ => ⟨S8192x8192, .f32⟩
  | .hbm, ⟨23, _⟩ => ⟨S8192x8192, .f32⟩
  | .hbm, ⟨24, _⟩ => ⟨S8192x8192, .f32⟩
  | .hbm, ⟨25, _⟩ => ⟨S_, .f32⟩
  | .hbm, ⟨26, _⟩ => ⟨S_, .f32⟩
  | .hbm, ⟨27, _⟩ => ⟨S8192x8192, .f32⟩
  | .hbm, ⟨28, _⟩ => ⟨S8192x8192, .f32⟩
  | _, _ => ⟨S8192x64, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_v0 : Ref sig .tc := ⟨.hbm, 1, rfl⟩
abbrev main_cst : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩
abbrev main_v5 : Ref sig .tc := ⟨.hbm, 7, rfl⟩
abbrev main_v6 : Ref sig .tc := ⟨.hbm, 8, rfl⟩
abbrev main_v7 : Ref sig .tc := ⟨.hbm, 9, rfl⟩
abbrev main_cst_0 : Ref sig .tc := ⟨.hbm, 10, rfl⟩
abbrev main_v8 : Ref sig .tc := ⟨.hbm, 11, rfl⟩
abbrev main_v9 : Ref sig .tc := ⟨.hbm, 12, rfl⟩
abbrev main_v10 : Ref sig .tc := ⟨.hbm, 13, rfl⟩
abbrev main_cst_1 : Ref sig .tc := ⟨.hbm, 14, rfl⟩
abbrev main_v11 : Ref sig .tc := ⟨.hbm, 15, rfl⟩
abbrev main_v12 : Ref sig .tc := ⟨.hbm, 16, rfl⟩
abbrev main_cst_2 : Ref sig .tc := ⟨.hbm, 17, rfl⟩
abbrev main_v13 : Ref sig .tc := ⟨.hbm, 18, rfl⟩
abbrev main_v14 : Ref sig .tc := ⟨.hbm, 19, rfl⟩
abbrev main_cst_3 : Ref sig .tc := ⟨.hbm, 20, rfl⟩
abbrev main_call0_v0 : Ref sig .tc := ⟨.hbm, 21, rfl⟩
abbrev main_call0_v1 : Ref sig .tc := ⟨.hbm, 22, rfl⟩
abbrev main_v15 : Ref sig .tc := ⟨.hbm, 23, rfl⟩
abbrev main_v16 : Ref sig .tc := ⟨.hbm, 24, rfl⟩
abbrev main_cst_4 : Ref sig .tc := ⟨.hbm, 25, rfl⟩
abbrev main_call1_v0 : Ref sig .tc := ⟨.hbm, 26, rfl⟩
abbrev main_call1_v1 : Ref sig .tc := ⟨.hbm, 27, rfl⟩
abbrev main_v17 : Ref sig .tc := ⟨.hbm, 28, rfl⟩

abbrev nD : Nat := 1
abbrev τ : Topo := Topo.v7x

variable {F : FTy → Type} [FloatOps F]

class Facts₀ : Prop where
  reducesTo_S8192x64_S8192_d1 : S8192x64.ReducesTo [1] S8192
  h_S_ : 0 < S_.numel
  bcast_S8192_S8192x1_0 : S8192.BroadcastsInDim S8192x1 (![0] : Fin 1 → Fin S8192x1.rank)
  bcast_S8192_S1x8192_1 : S8192.BroadcastsInDim S1x8192 (![1] : Fin 1 → Fin S1x8192.rank)
  bcast_S8192x1_S8192x8192_0_1 : S8192x1.BroadcastsInDim S8192x8192 (![0, 1] : Fin 2 → Fin S8192x8192.rank)
  bcast_S1x8192_S8192x8192_0_1 : S1x8192.BroadcastsInDim S8192x8192 (![0, 1] : Fin 2 → Fin S8192x8192.rank)
  bcast_S_S8192x8192 : S_.BroadcastsInDim S8192x8192 (![] : Fin 0 → Fin S8192x8192.rank)
  dot_S8192x64_S8192x64_S8192x8192_1_1_0_0_n_n_wf : DotDims.WF S8192x64 S8192x64 S8192x8192 [1] [1] [0] [0] [] []

variable [Facts₀]

def dot_S8192x64_S8192x64_S8192x8192_1_1_0_0_n_n : DotDims S8192x64 S8192x64 S8192x8192 where
  lhsContracting := [1]
  rhsContracting := [1]
  lhsNonContracting := [0]
  rhsNonContracting := [0]
  lhsBatch := []
  rhsBatch := []
  wf := dot_S8192x64_S8192x64_S8192x8192_1_1_0_0_n_n_wf

class Facts : Prop extends Facts₀ where

variable [Facts]
-- ==== Proof.DistPiece.lean ====
/-
  What the kernel body leaves in the output block's buffer at a grid point: its one store covers the whole
  1024 × 1024 block, so the buffer ends at the stored value — the body's arithmetic applied to the two blocks of
  1024 rows of the resident array that the body loads, the "row" block at row offset 1024·i₀ and the "column"
  block at row offset 1024·i₁ of the grid point (i₀, i₁).
-/
import proofs.«114550_j36541581754617_2_alg».proof.Proof.Gen.KernelIdeal.Frame
import Idealize.ShloMosaic.Lib.Pipeline.Value
import Idealize.ShloMosaic.Lib.Tactic

set_option maxRecDepth 16384

noncomputable section

namespace Cert.Dist.Piece

open Cert.KernelIdeal Cert.KernelIdeal.Gen Idealize.ShloMosaic Idealize.ShloMosaic.TcCoe Idealize.SL.Sem
open Idealize.ShloMosaic.Tactic

variable {F : FTy → Type} [FloatOps F]

theorem zero_offsets : (![0, 0] : Fin 2 → Nat) = fun _ => 0 := funext fun a => by fin_cases a <;> rfl

/-- The 1024 rows of the resident array that start at the first grid coordinate's row offset. -/
abbrev rowBlock (i : grid0.Coords) (x0 : Vec F S8192x64 .f32) : Vec F S1024x64 .f32 :=
  View.ld x0 (Rect.unit (s := S8192x64) (k0_off1 i) S1024x64.size (k0_off1_inb i))

/-- The 1024 rows of the resident array that start at the second grid coordinate's row offset. -/
abbrev colBlock (i : grid0.Coords) (x0 : Vec F S8192x64 .f32) : Vec F S1024x64 .f32 :=
  View.ld x0 (Rect.unit (s := S8192x64) (k0_off2 i) S1024x64.size (k0_off2_inb i))

/-- The output block's buffer after the body: the stored value, a function of the two loaded row blocks. -/
theorem out_eq (c : Dev nD) (i : grid0.Coords) (arg2 : Memref sig .tc .vmem S8192x64 .f32) (harg2 : arg2.IsWhole)
    (arg3 : Memref sig .tc .vmem S1024x1024 .f32) (harg3 : arg3.IsWhole) (x0 : Vec F S8192x64 .f32) :
    out0_A_1 c i arg2 harg2 arg3 harg3 x0 = k0_pay1 i (rowBlock i x0) (colBlock i x0) := by
  unfold out0_A_1
  rw [View.read_writes_eq_canon _ _ _ (cover0_A_1 c i arg2 harg2 arg3 harg3 x0)]
  unfold kernelRun0_A
  dsimp only
  rw [View.canon_unit_zero zero_offsets]
  simp only [View.readAt_eq_ld, harg2.read_unread]

end Cert.Dist.Piece

end
-- ==== Proof.DistSpec.lean ====
/-
  Pairwise Euclidean distances of the rows of an [8192, 64] array X through the Gram identity
      ‖x_r − x_c‖² = ‖x_r‖² + ‖x_c‖² − 2⟨x_r, x_c⟩,
  as one function of the array, index by index, over the extended reals:
      d(r, c) = √(max(‖x_r‖² + ‖x_c‖² − 2⟨x_r, x_c⟩, 0))  where that maximum is positive, and 0 where it is not
  (the square root is taken of 1 where the maximum is not positive, and its result discarded there).
  On the diagonal the squared norm and the Gram entry are the SAME sum s, so the clamped value is
  max(s + s − 2s, 0). For a real number s the difference is 0; for s = +∞ or s = −∞ it is −∞ (the extended reals'
  convention ∞ − ∞ = −∞), and the clamp at 0 gives 0 again. So d(r, r) = 0 for EVERY array X over the extended
  reals: the law needs no finiteness of the entries.
-/
import Idealize.ShloMosaic.PureOps.Ideal
import Idealize.ShloMosaic.PureOps.Ideal.Laws
import Idealize.ShloMosaic.Lib.ValueIdx

noncomputable section

namespace Cert.Dist

open Idealize.ShloMosaic Idealize.ShloMosaic.ValueIdx

/-- The array of points: 8192 rows of 64 coordinates. -/
abbrev SX : Shape := ⟨2, ![8192, 64]⟩
/-- The matrix of distances. -/
abbrev SD : Shape := ⟨2, ![8192, 8192]⟩

/-- The f32 patterns of 0, 1 and 2 as extended reals. -/
abbrev zero : EReal := Ideal.ofBits .f32 0x00000000#32
abbrev one : EReal := Ideal.ofBits .f32 0x3F800000#32
abbrev two : EReal := Ideal.ofBits .f32 0x40000000#32

/-- ‖x_r‖²: the sum of the squares of row r. -/
def sqNorm (X : SX.Idx → EReal) (r : Fin 8192) : EReal := ∑ k : Fin 64, X (ix2 r k) * X (ix2 r k)

/-- ⟨x_r, x_c⟩: the Gram entry of rows r and c. -/
def gram (X : SX.Idx → EReal) (r c : Fin 8192) : EReal := ∑ k : Fin 64, X (ix2 r k) * X (ix2 c k)

/-- The squared distance from the two squared norms and the Gram entry, clamped at 0 from below. -/
def clamped (nr nc g : EReal) : EReal := max ((nr + nc) - two * g) zero

/-- The guarded square root: √s where s > 0 (the root is taken of 1 elsewhere and discarded), 0 where not. -/
def root (s : EReal) : EReal :=
  Scalar.select (Ideal.cmp .ogt s zero) (Ideal.sqrt (Scalar.select (Ideal.cmp .ogt s zero) s one)) zero

/-- The distance between rows r and c. -/
def entry (X : SX.Idx → EReal) (r c : Fin 8192) : EReal :=
  root (clamped (sqNorm X r) (sqNorm X c) (gram X r c))

/-- The matrix of distances, as a function of the array of points. -/
def dist (X : SX.Idx → EReal) : SD.Idx → EReal := fun i => entry X (i 0) (i 1)

/-! ## The diagonal -/

theorem zero_eq : zero = 0 := Ideal.ofBits_zero_f32

theorem two_eq : two = ((2 : ℝ) : EReal) := by
  simp [Ideal.ofBits, Ideal.ieee, -EReal.coe_mul]; norm_num

/-- The guarded root of 0 is 0: 0 is not positive. -/
theorem root_zero : root zero = zero := by
  have hc : Ideal.cmp .ogt zero zero = 0#1 := by unfold Ideal.cmp; simp
  unfold root
  rw [hc, select_zero]

/-- s + s − 2s clamped at 0 is 0, at every extended real s: the difference is 0 at a real number and −∞ at ±∞. -/
theorem clamped_diag (s : EReal) : clamped s s s = zero := by
  unfold clamped
  rw [two_eq, zero_eq]
  induction s using EReal.rec with
  | bot => simp [EReal.coe_mul_bot_of_pos (show (0 : ℝ) < 2 by norm_num)]
  | top => simp [EReal.coe_mul_top_of_pos (show (0 : ℝ) < 2 by norm_num)]
  | coe a =>
    rw [← EReal.coe_add, ← EReal.coe_mul, ← EReal.coe_sub, show a + a - 2 * a = 0 by ring, EReal.coe_zero, max_self]

/-- THE DIAGONAL LAW: a point's distance to itself is 0 — the squared norm and the Gram entry of a row with itself
    are one sum. -/
theorem entry_diag (X : SX.Idx → EReal) (r : Fin 8192) : entry X r r = zero := by
  have hg : gram X r r = sqNorm X r := rfl
  unfold entry
  rw [hg, clamped_diag, root_zero]

end Cert.Dist

end
-- ==== Proof.LibColumn.lean ====
/-
  General lemmas about rank-2 vectors, at any extents.

  * Keepdims column forms: an `[a]` vector cast to `[a, 1]` reads, at `(p, u)`, the vector at `p`; an `[a, 1]`
    column broadcast to `[a, b]` reads, at `(p, q)`, the column at `(p, 0)`.
  * Inserting coordinate `k` on the reduced second axis of an `[a, b]` vector at reduced index `p` gives `(p, k)`.
-/
import Idealize.ShloMosaic.Lib.Pipeline.Value
import Idealize.ShloMosaic.Lib.ValueIdx
import Idealize.ShloMosaic.Lib.ValueLayout
import Idealize.ShloMosaic.PureOps.Ideal.Laws

noncomputable section

namespace Cert.LibColumn

open Idealize.ShloMosaic Idealize.ShloMosaic.ValueIdx

variable {α : Type}

/-- An `[a]` vector cast to a column `[a, 1]` reads, at `(p, u)`, the vector at `p`, whatever the unit coordinate. -/
theorem shapeCast_a_a1_apply {a : ℕ} (x : (⟨1, ![a]⟩ : Shape).Idx → α) (h : (⟨1, ![a]⟩ : Shape).ShapeCasts ⟨2, ![a, 1]⟩)
    (p : Fin a) (u : Fin 1) : shapeCast ⟨2, ![a, 1]⟩ x h (ix2 p u) = x (ix1 p) :=
  shapeCast_apply x h _ _ (by
    have hu : u.val = 0 := by omega
    rw [Shape.rowMajor_val_two, Shape.rowMajor_val_one]
    show p.val = p.val * 1 + u.val
    rw [hu, Nat.mul_one, Nat.add_zero])

/-- A column `[a, 1]` broadcast to `[a, b]` reads, at `(p, q)`, the column's entry of row `p`. -/
theorem broadcastTo_a1_ab_apply {a b : ℕ} (v : (⟨2, ![a, 1]⟩ : Shape).Idx → α) (h : (⟨2, ![a, 1]⟩ : Shape).Broadcasts ⟨2, ![a, b]⟩)
    (p : Fin a) (q : Fin b) : broadcastTo ⟨2, ![a, b]⟩ v h (ix2 p q) = v (ix2 p (0 : Fin 1)) := by
  refine broadcastTo_apply v h (ix2 p q) (ix2 p (0 : Fin 1)) fun ax => ?_
  match ax with
  | ⟨0, _⟩ =>
    show p.val = if a = 1 then 0 else p.val
    split
    · have := p.isLt; omega
    · rfl
  | ⟨1, _⟩ => rfl

/-- Reducing the second axis of `[a, b]` to `[a]`: the reduced index `p` with coordinate `k` put back is `(p, k)`. -/
theorem lift_row {a b : ℕ} (h : (⟨2, ![a, b]⟩ : Shape).Reduces [1] ⟨1, ![a]⟩) (p : Fin a) (k : Fin b) :
    h.lift (ix1 p) k = ix2 p k :=
  funext fun ax => Fin.ext (by
    match ax with
    | ⟨0, _⟩ => rfl
    | ⟨1, _⟩ => rfl)

end Cert.LibColumn

end
-- ==== Proof.LibDot.lean ====
/-
  A matrix product with one contracted axis, read at an index as a sum over the contracted extent.
  For dimension numbers that contract the left operand's axis 1 with the right operand's axis 0, with no batch
  axes — the plain product of an [M, K] matrix with a [K, N] matrix — the operand indices at result index (p, q) and
  contraction index k are (p, k) and (k, q); so the sum over the contraction shape is the sum over k < K of
  lhs (p, k) · rhs (k, q). Both a kernel's accumulating product into a zero accumulator and the host's product
  without an accumulator are that sum at the extended reals.
-/
import Idealize.ShloMosaic.Lib.ValueIdx
import Idealize.ShloMosaic.PureOps.Ideal.Laws
import Idealize.ShloMosaic.Lib.KernelVsHost

noncomputable section

namespace Idealize.ShloMosaic.LibDot

open Idealize.ShloMosaic Idealize.ShloMosaic.ValueIdx

variable {sl sr so : Shape} (d : DotDims sl sr so)

/-- A non-contracting, non-batch axis of the left operand reads the result index at its position. -/
theorem lhsIdx_val_of_non {a : Fin sl.rank} (hb : a ∉ d.lhsBatch) (hn : a ∈ d.lhsNonContracting)
    (j : so.Idx) (k : d.contr.Idx) (p : Nat) (hp : p < so.rank) (hpe : d.lhsBatch.length + d.lhsNonContracting.idxOf a = p) :
    (d.lhsIdx j k a).val = (j ⟨p, hp⟩).val := by
  subst hpe
  unfold DotDims.lhsIdx
  rw [dif_neg hb, dif_pos hn]
  rfl

/-- A non-contracting, non-batch axis of the right operand reads the result index at its position. -/
theorem rhsIdx_val_of_non {a : Fin sr.rank} (hb : a ∉ d.rhsBatch) (hn : a ∈ d.rhsNonContracting)
    (j : so.Idx) (k : d.contr.Idx) (p : Nat) (hp : p < so.rank)
    (hpe : d.lhsBatch.length + d.lhsNonContracting.length + d.rhsNonContracting.idxOf a = p) :
    (d.rhsIdx j k a).val = (j ⟨p, hp⟩).val := by
  subst hpe
  unfold DotDims.rhsIdx
  rw [dif_neg hb, dif_pos hn]
  rfl

/-- The plain product's sum over the contraction shape is the sum over the contracted extent. -/
theorem sum_plain {M K N : ℕ} (d : DotDims ⟨2, ![M, K]⟩ ⟨2, ![K, N]⟩ ⟨2, ![M, N]⟩)
    (hlc : d.lhsContracting = [1]) (hrc : d.rhsContracting = [0])
    (hlb : d.lhsBatch = []) (hrb : d.rhsBatch = []) (hln : d.lhsNonContracting = [0]) (hrn : d.rhsNonContracting = [1])
    (lhs : (⟨2, ![M, K]⟩ : Shape).Idx → EReal) (rhs : (⟨2, ![K, N]⟩ : Shape).Idx → EReal) (p : Fin M) (q : Fin N) :
    ∑ k : d.contr.Idx, lhs (d.lhsIdx (ix2 p q) k) * rhs (d.rhsIdx (ix2 p q) k) = ∑ k : Fin K, lhs (ix2 p k) * rhs (ix2 k q) := by
  have hr : d.contr.rank = 1 := by rw [d.rank_contr, hlc]; rfl
  have hs : d.contr.size ⟨0, by omega⟩ = K := by
    have h := d.size_contr 0 (by rw [hlc]; exact Nat.one_pos)
    simp only [hlc, List.getElem_cons_zero] at h
    exact h
  refine ((Equiv.sum_comp (contrEquiv1 d K hr hs).symm _).symm).trans ?_
  refine Finset.sum_congr rfl fun k _ => ?_
  have hl : d.lhsIdx (ix2 p q) ((contrEquiv1 d K hr hs).symm k) = ix2 p k := by
    funext a; apply Fin.ext
    match a with
    | ⟨0, _⟩ =>
      exact lhsIdx_val_of_non d (a := 0) (by rw [hlb]; exact List.not_mem_nil) (by rw [hln]; exact List.mem_singleton.mpr rfl) _ _ 0 (Nat.zero_lt_two)
        (by rw [hlb, hln]; rfl)
    | ⟨1, _⟩ =>
      exact (d.lhsIdx_val_of_single (cl := 1) hlc _ _).trans (contrEquiv1_symm_val d K hr hs k)
  have hrr : d.rhsIdx (ix2 p q) ((contrEquiv1 d K hr hs).symm k) = ix2 k q := by
    funext a; apply Fin.ext
    match a with
    | ⟨0, _⟩ =>
      exact (d.rhsIdx_val_of_single (cr := 0) hrc _ _).trans (contrEquiv1_symm_val d K hr hs k)
    | ⟨1, _⟩ =>
      exact rhsIdx_val_of_non d (a := 1) (by rw [hrb]; exact List.not_mem_nil) (by rw [hrn]; exact List.mem_singleton.mpr rfl) _ _ 1 (Nat.one_lt_two)
        (by rw [hlb, hln, hrn]; rfl)
  rw [hl, hrr]

/-- A kernel's product accumulated into the zero splat, read at (p, q). -/
theorem matmul_zero_plain {M K N : ℕ} {φ₁ φ₂ : FTy} (d : DotDims ⟨2, ![M, K]⟩ ⟨2, ![K, N]⟩ ⟨2, ![M, N]⟩)
    (hlc : d.lhsContracting = [1]) (hrc : d.rhsContracting = [0])
    (hlb : d.lhsBatch = []) (hrb : d.rhsBatch = []) (hln : d.lhsNonContracting = [0]) (hrn : d.rhsNonContracting = [1])
    (prec : Option ContractPrecision) (lhs : FVec Ideal ⟨2, ![M, K]⟩ φ₁) (rhs : FVec Ideal ⟨2, ![K, N]⟩ φ₂) (p : Fin M) (q : Fin N) :
    matmul d prec lhs rhs (constant ⟨2, ![M, N]⟩ .f32 0x00000000#32) (ix2 p q) = ∑ k : Fin K, lhs (ix2 p k) * rhs (ix2 k q) :=
  (Ideal.matmul_constant_zero_apply d prec lhs rhs (ix2 p q)).trans (sum_plain d hlc hrc hlb hrb hln hrn lhs rhs p q)

/-- The host's product, read at (p, q). -/
theorem dotGeneral_plain {M K N : ℕ} {φ₁ φ₂ : FTy} (d : DotDims ⟨2, ![M, K]⟩ ⟨2, ![K, N]⟩ ⟨2, ![M, N]⟩)
    (hlc : d.lhsContracting = [1]) (hrc : d.rhsContracting = [0])
    (hlb : d.lhsBatch = []) (hrb : d.rhsBatch = []) (hln : d.lhsNonContracting = [0]) (hrn : d.rhsNonContracting = [1])
    (prec : Option ContractPrecision) (lhs : FVec Ideal ⟨2, ![M, K]⟩ φ₁) (rhs : FVec Ideal ⟨2, ![K, N]⟩ φ₂) (p : Fin M) (q : Fin N) :
    Host.dotGeneral d prec lhs rhs (ix2 p q) = ∑ k : Fin K, lhs (ix2 p k) * rhs (ix2 k q) := by
  rw [← matmul_zero_eq_dotGeneral]
  exact matmul_zero_plain d hlc hrc hlb hrb hln hrn prec lhs rhs p q

end Idealize.ShloMosaic.LibDot

end
-- ==== Proof.DistBody.lean ====
/-
  The kernel body's arithmetic on one 1024 × 1024 block of the distance matrix, read at an entry (p, q) of the block.
  The body holds two blocks of 1024 rows of the array: a "row" block a and a "column" block b. It forms
    * the squared norms of a's rows, kept as a column and spread along the block's rows;
    * the squared norms of b's rows, kept as a column, transposed to a row and spread along the block's columns;
    * the product of a with the transpose of b, accumulated into zeros: the Gram entries ⟨a_p, b_q⟩;
    * their combination ‖a_p‖² + ‖b_q‖² − 2⟨a_p, b_q⟩ clamped at 0, and its guarded square root;
    * and a mask of the entries whose global row number equals their global column number, where it stores 0.
  At (p, q) this is: 0 where the mask is set, and elsewhere the guarded root of the clamped combination of three
  plain sums over the 64 coordinates. The mask is set only where the global row and column numbers are equal.
-/
import proofs.«114550_j36541581754617_2_alg».proof.Proof.Gen.KernelIdeal.Skeleton
import proofs.«114550_j36541581754617_2_alg».proof.Proof.DistSpec
import proofs.«114550_j36541581754617_2_alg».proof.Proof.LibColumn
import proofs.«114550_j36541581754617_2_alg».proof.Proof.LibDot
import Idealize.ShloMosaic.Lib.ValueLayout
import Idealize.ShloMosaic.Lib.Pipeline.Value
import Idealize.ShloMosaic.Lib.Affine

noncomputable section

namespace Cert.Dist.Body

open Cert.KernelIdeal Cert.KernelIdeal.Gen Idealize.ShloMosaic Idealize.ShloMosaic.ValueIdx Cert.Dist

/-! ## The three sums -/

/-- ‖a_p‖²: the sum of the squares of row p of a block. -/
def rowSq (a : FVec Ideal S1024x64 .f32) (p : Fin 1024) : EReal := ∑ k : Fin 64, a (ix2 p k) * a (ix2 p k)

/-- ⟨a_p, b_q⟩. -/
def rowDot (a b : FVec Ideal S1024x64 .f32) (p q : Fin 1024) : EReal := ∑ k : Fin 64, a (ix2 p k) * b (ix2 q k)

/-! ## The body's values, named -/

/-- The squared norms of a block's rows. -/
def blockNorms (a : FVec Ideal S1024x64 .f32) : FVec Ideal S1024 .f32 :=
  multiReduction (F := Ideal) .add [1] S1024 (mulf a a) 0x00000000#32 reduces_S1024x64_S1024 (.inl rfl) rfl

/-- … kept as a column. -/
def normColumn (a : FVec Ideal S1024x64 .f32) : FVec Ideal S1024x1 .f32 :=
  shapeCast S1024x1 (blockNorms a) shapeCasts_S1024_S1024x1

/-- The row block's squared norms, spread along the rows of the output block. -/
def normRows (a : FVec Ideal S1024x64 .f32) : FVec Ideal S1024x1024 .f32 :=
  broadcastTo S1024x1024 (normColumn a) broadcasts_S1024x1_S1024x1024

/-- The column block's squared norms, transposed to a row and spread along the columns of the output block. -/
def normCols (b : FVec Ideal S1024x64 .f32) : FVec Ideal S1024x1024 .f32 :=
  broadcastTo S1024x1024 (transpose S1x1024 [1, 0] (normColumn b) transposes_S1024x1_p1_0_S1x1024)
    broadcasts_S1x1024_S1024x1024

/-- The Gram block: a times the transpose of b, accumulated into zeros. -/
def gramBlock (a b : FVec Ideal S1024x64 .f32) : FVec Ideal S1024x1024 .f32 :=
  matmul dot_S1024x64_S64x1024_S1024x1024_1_0_0_1_n_n (some .fp32) a
    (transpose S64x1024 [1, 0] b transposes_S1024x64_p1_0_S64x1024) (constant S1024x1024 .f32 0x00000000#32)

/-- The clamped squared distances of the block. -/
def sqBlock (a b : FVec Ideal S1024x64 .f32) : FVec Ideal S1024x1024 .f32 :=
  maximumf (subf (addf (normRows a) (normCols b))
      (mulf (broadcast S1024x1024 (Scalar.ofBits .f32 0x40000000#32)) (gramBlock a b)))
    (broadcast S1024x1024 (Scalar.ofBits .f32 0x00000000#32))

/-- The mask of the entries on the matrix's diagonal: global row number (1024·i₀ + local row) equal to global
    column number (1024·i₁ + local column), compared as 32-bit words. -/
def diagMask (i : grid0.Coords) : IVec S1024x1024 1 :=
  cmpi .eq
    (addi (broadcast S1024x1024 (Scalar.muli (BitVec.ofNat 32 (i 0).val) 1024#32))
      (iota .tc S1024x1024 32 [0] iota_S1024x1024_d0_w32))
    (addi (broadcast S1024x1024 (Scalar.muli (BitVec.ofNat 32 (i 1).val) 1024#32))
      (iota .tc S1024x1024 32 [1] iota_S1024x1024_d1_w32))

/-- The stored block, from these. -/
def stored (i : grid0.Coords) (a b : FVec Ideal S1024x64 .f32) : FVec Ideal S1024x1024 .f32 :=
  select (diagMask i) (broadcast S1024x1024 (Scalar.ofBits .f32 0x00000000#32))
    (select (cmpf .ogt (sqBlock a b) (broadcast S1024x1024 (Scalar.ofBits .f32 0x00000000#32)))
      (sqrt (select (cmpf .ogt (sqBlock a b) (broadcast S1024x1024 (Scalar.ofBits .f32 0x00000000#32))) (sqBlock a b)
        (broadcast S1024x1024 (Scalar.ofBits .f32 0x3F800000#32))))
      (broadcast S1024x1024 (Scalar.ofBits .f32 0x00000000#32)))

/-- The body's stored value is that block: the same operations in the same order. -/
theorem pay_eq (i : grid0.Coords) (a b : FVec Ideal S1024x64 .f32) : k0_pay1 (F := Ideal) i a b = stored i a b := rfl

/-! ## Each named value at an index -/

theorem blockNorms_apply (a : FVec Ideal S1024x64 .f32) (p : Fin 1024) : blockNorms a (ix1 p) = rowSq a p :=
  (Ideal.multiReduction_add_single (mulf a a) 0x00000000#32 reduces_S1024x64_S1024 (.inl rfl) rfl (ix1 p)).trans
    (Finset.sum_congr rfl fun k _ => congrArg (fun j => a j * a j) (LibColumn.lift_row reduces_S1024x64_S1024 p k))

theorem normColumn_apply (a : FVec Ideal S1024x64 .f32) (p : Fin 1024) (u : Fin 1) :
    normColumn a (ix2 p u) = rowSq a p :=
  (LibColumn.shapeCast_a_a1_apply (blockNorms a) shapeCasts_S1024_S1024x1 p u).trans (blockNorms_apply a p)

theorem normRows_apply (a : FVec Ideal S1024x64 .f32) (p q : Fin 1024) : normRows a (ix2 p q) = rowSq a p :=
  (LibColumn.broadcastTo_a1_ab_apply (normColumn a) broadcasts_S1024x1_S1024x1024 p q).trans (normColumn_apply a p 0)

theorem normCols_apply (b : FVec Ideal S1024x64 .f32) (p q : Fin 1024) : normCols b (ix2 p q) = rowSq b q :=
  (ValueIdx.broadcastTo_1b_ab_apply _ broadcasts_S1x1024_S1024x1024 p q).trans
    ((ValueIdx.transpose_ix2_apply (normColumn b) transposes_S1024x1_p1_0_S1x1024 (0 : Fin 1) q).trans
      (normColumn_apply b q 0))

theorem gramBlock_apply (a b : FVec Ideal S1024x64 .f32) (p q : Fin 1024) : gramBlock a b (ix2 p q) = rowDot a b p q :=
  (LibDot.matmul_zero_plain dot_S1024x64_S64x1024_S1024x1024_1_0_0_1_n_n rfl rfl rfl rfl rfl rfl (some .fp32) a
      (transpose S64x1024 [1, 0] b transposes_S1024x64_p1_0_S64x1024) p q).trans
    (Finset.sum_congr rfl fun k _ => congrArg (a (ix2 p k) * ·)
      (ValueIdx.transpose_ix2_apply b transposes_S1024x64_p1_0_S64x1024 k q))

theorem sqBlock_apply (a b : FVec Ideal S1024x64 .f32) (p q : Fin 1024) :
    sqBlock a b (ix2 p q) = clamped (rowSq a p) (rowSq b q) (rowDot a b p q) := by
  show max ((normRows a (ix2 p q) + normCols b (ix2 p q)) - two * gramBlock a b (ix2 p q)) zero = _
  rw [normRows_apply, normCols_apply, gramBlock_apply]
  rfl

/-- The mask's word at (p, q). -/
def diagBit (i : grid0.Coords) (p q : Fin 1024) : BitVec 1 :=
  IntOp.cmpi .eq (IntOp.addi (Scalar.muli (BitVec.ofNat 32 (i 0).val) 1024#32) (BitVec.ofNat 32 p.val))
    (IntOp.addi (Scalar.muli (BitVec.ofNat 32 (i 1).val) 1024#32) (BitVec.ofNat 32 q.val))

theorem diagMask_apply (i : grid0.Coords) (p q : Fin 1024) : diagMask i (ix2 p q) = diagBit i p q := by
  show IntOp.cmpi .eq (IntOp.addi _ (iota .tc S1024x1024 32 [0] iota_S1024x1024_d0_w32 (ix2 p q)))
    (IntOp.addi _ (iota .tc S1024x1024 32 [1] iota_S1024x1024_d1_w32 (ix2 p q))) = _
  rw [iota_single_apply, iota_single_apply]
  rfl

/-- The mask is set only on the diagonal: with grid coordinates below 8 and local numbers below 1024 nothing wraps
    in 32 bits, so equal words are equal numbers. -/
theorem diag_of_bit (i : grid0.Coords) (p q : Fin 1024) (h : diagBit i p q = 1#1) :
    1024 * (i 0).val + p.val = 1024 * (i 1).val + q.val := by
  have h0 : (i 0).val < 8 := (i 0).isLt
  have h1 : (i 1).val < 8 := (i 1).isLt
  have hp := p.isLt
  have hq := q.isLt
  have e := congrArg BitVec.toNat (IntOp.cmpi_eq.mp h)
  simp only [IntOp.addi, Scalar.muli, IntOp.muli, BitVec.toNat_add, BitVec.toNat_mul, BitVec.toNat_ofNat] at e
  omega

/-- THE STORED BLOCK AT (p, q): 0 on the mask, elsewhere the guarded root of the clamped combination. -/
theorem stored_apply (i : grid0.Coords) (a b : FVec Ideal S1024x64 .f32) (p q : Fin 1024) :
    k0_pay1 (F := Ideal) i a b (ix2 p q)
      = Scalar.select (diagBit i p q) zero (root (clamped (rowSq a p) (rowSq b q) (rowDot a b p q))) := by
  rw [pay_eq]
  show Scalar.select (diagMask i (ix2 p q)) zero (root (sqBlock a b (ix2 p q))) = _
  rw [diagMask_apply, sqBlock_apply]

end Cert.Dist.Body

end
-- ==== Proof.DistBlock.lean ====
/-
  One entry of one block, against the matrix of distances.
  At grid point (i₀, i₁) the body's "row" block is rows 1024·i₀ … 1024·i₀ + 1023 of the array X and its "column"
  block rows 1024·i₁ … 1024·i₁ + 1023, so the block's three sums at (p, q) are the squared norms and the Gram entry
  of rows r = 1024·i₀ + p and c = 1024·i₁ + q of X, and off the mask the stored entry is the distance d(r, c).
  On the mask r = c, and the stored 0 is d(r, r) by the diagonal law. So entry (p, q) of the block is d(r, c).
-/
import proofs.«114550_j36541581754617_2_alg».proof.Proof.DistPiece
import proofs.«114550_j36541581754617_2_alg».proof.Proof.DistBody

noncomputable section

namespace Cert.Dist.Block

open Cert.KernelIdeal Cert.KernelIdeal.Gen Idealize.ShloMosaic Idealize.ShloMosaic.ValueIdx Cert.Dist
open Cert.Dist.Piece Cert.Dist.Body

variable (X : FVec Ideal S8192x64 .f32) (i : grid0.Coords)

/-- The row block at (p, k) is X at (1024·i₀ + p, k). -/
theorem rowBlock_apply (p : Fin 1024) (k : Fin 64) (r : Fin 8192) (hr : r.val = 1024 * (i 0).val + p.val) :
    rowBlock (F := Ideal) i X (ix2 p k) = X (ix2 r k) := by
  show X _ = X _
  refine congrArg X (funext fun a => Fin.ext ?_)
  have e := k0_off1_eq i
  match a with
  | ⟨0, _⟩ =>
    show (k0_off1 i) 0 + 1 * p.val = r.val
    rw [e, hr]
    show 1024 * (i 0).val + 1 * p.val = _
    omega
  | ⟨1, _⟩ =>
    show (k0_off1 i) 1 + 1 * k.val = k.val
    rw [e]
    show 0 + 1 * k.val = _
    omega

/-- The column block at (q, k) is X at (1024·i₁ + q, k). -/
theorem colBlock_apply (q : Fin 1024) (k : Fin 64) (c : Fin 8192) (hc : c.val = 1024 * (i 1).val + q.val) :
    colBlock (F := Ideal) i X (ix2 q k) = X (ix2 c k) := by
  show X _ = X _
  refine congrArg X (funext fun a => Fin.ext ?_)
  have e := k0_off2_eq i
  match a with
  | ⟨0, _⟩ =>
    show (k0_off2 i) 0 + 1 * q.val = c.val
    rw [e, hc]
    show 1024 * (i 1).val + 1 * q.val = _
    omega
  | ⟨1, _⟩ =>
    show (k0_off2 i) 1 + 1 * k.val = k.val
    rw [e]
    show 0 + 1 * k.val = _
    omega

/-- A selection between two equal values is that value. -/
theorem select_same {α : Type} (b : BitVec 1) (x : α) : Scalar.select b x x = x := by
  unfold Scalar.select; split <;> rfl

/-- ENTRY (p, q) OF THE BLOCK at grid point i is the distance between rows r = 1024·i₀ + p and c = 1024·i₁ + q. -/
theorem block_entry (p q : Fin 1024) (r c : Fin 8192) (hr : r.val = 1024 * (i 0).val + p.val)
    (hc : c.val = 1024 * (i 1).val + q.val) :
    k0_pay1 (F := Ideal) i (rowBlock (F := Ideal) i X) (colBlock (F := Ideal) i X) (ix2 p q) = entry X r c := by
  have ha : rowSq (rowBlock (F := Ideal) i X) p = sqNorm X r :=
    Finset.sum_congr rfl fun k _ => by rw [rowBlock_apply X i p k r hr]
  have hb : rowSq (colBlock (F := Ideal) i X) q = sqNorm X c :=
    Finset.sum_congr rfl fun k _ => by rw [colBlock_apply X i q k c hc]
  have hg : rowDot (rowBlock (F := Ideal) i X) (colBlock (F := Ideal) i X) p q = gram X r c :=
    Finset.sum_congr rfl fun k _ => by rw [rowBlock_apply X i p k r hr, colBlock_apply X i q k c hc]
  rw [stored_apply, ha, hb, hg]
  show Scalar.select (diagBit i p q) zero (entry X r c) = entry X r c
  by_cases hbit : diagBit i p q = 1#1
  · have hrc : r = c := Fin.ext (by rw [hr, hc]; exact diag_of_bit i p q hbit)
    subst hrc
    rw [entry_diag, select_same]
  · rw [eq_zero_of_ne_one hbit, select_zero]

end Cert.Dist.Block

end
-- ==== Proof.DistValue.lean ====
/-
  From blocks to the array. The grid is 8 × 8; point (i₀, i₁) writes back block (i₀, i₁) of the 8192 × 8192 result,
  1024 × 1024 entries, and the whole array of points is resident at every point (its window's block index is (0, 0)).
  Entry (p, q) of the block point (i₀, i₁) writes back sits at (1024·i₀ + p, 1024·i₁ + q) of the result and is the
  distance between those two rows (DistBlock). Every index (r, c) of the result lies in the block of point
  (r / 1024, c / 1024), and every point writes back, so the result array ends holding the matrix of distances.
-/
import proofs.«114550_j36541581754617_2_alg».proof.Proof.Gen.KernelIdeal.Value
import proofs.«114550_j36541581754617_2_alg».proof.Proof.DistBlock

set_option maxRecDepth 16384

noncomputable section

namespace Cert.Dist.Value

open Cert.KernelIdeal Cert.KernelIdeal.Gen Idealize.ShloMosaic Idealize.ShloMosaic.TcCoe Idealize.SL.Sem
open Idealize.ShloMosaic.ValueIdx Cert.Dist Cert.Dist.Piece
open Idealize.ShloMosaic.Pipeline (Dat)

variable (m : (ℓ : Loc nD τ sig) → Buf (Elt Ideal) ℓ) (ρ : Dev nD → PrngReg)

/-- The index maps over the 64 grid points: the array of points is always block (0, 0); the result's block index is
    the grid point's coordinates. -/
theorem idx_facts : ∀ t : Fin cfg0.N, win0_0.index t (0 : Fin 2) = 0 ∧ win0_0.index t (1 : Fin 2) = 0
    ∧ win0_1.index t (0 : Fin 2) = (grid0.coords t 0).val ∧ win0_1.index t (1 : Fin 2) = (grid0.coords t 1).val :=
  (by decide +kernel : ∀ t : Fin grid0.N, _)

/-- Every block of the 8 × 8 tiling is some point's. -/
theorem idx_onto : ∀ (q0 q1 : Fin 8), ∃ t : Fin cfg0.N, win0_1.index t = ![q0.val, q1.val] :=
  (by decide +kernel : ∀ (q0 q1 : Fin 8), ∃ t : Fin grid0.N, win0_1.index t = ![q0.val, q1.val])

/-- At every point the body's input block is the whole array of points. -/
theorem iblk_eq (c : Dev nD) (t : Fin cfg0.N) :
    (iblk m c 0 t : Vec Ideal S8192x64 .f32) = m ((c : Thread nD τ).loc main_arg0) := by
  obtain ⟨e0, e1, -, -⟩ := idx_facts t
  funext y
  unfold iblk
  rw [View.read_apply]
  show V m c main_arg0 _ = m ((c : Thread nD τ).loc main_arg0) y
  unfold V
  congr 1
  funext a
  apply Fin.ext
  match a with
  | ⟨0, _⟩ => show win0_0.index t (0 : Fin 2) * 8192 + 1 * (y 0).val = (y 0).val; rw [e0]; omega
  | ⟨1, _⟩ => show win0_0.index t (1 : Fin 2) * 64 + 1 * (y 1).val = (y 1).val; rw [e1]; omega

/-- WHAT POINT t WRITES BACK is block t of the matrix of distances of the array of points. -/
theorem flushed_eq (c : Dev nD) (t : Fin cfg0.N) :
    (dats m 0 c).flushed 1 t
      = ((cfg0.win 1).blk t).view.read (Elt Ideal) (dist (m ((c : Thread nD τ).loc main_arg0))) := by
  have hout : out0_A_1 c (grid0.coords t) (ms0_0 t) (hs0_0 t) (ms0_1 t) (hs0_1 t) (iblk m c 0 t)
      = k0_pay1 (grid0.coords t) (rowBlock (grid0.coords t) (m ((c : Thread nD τ).loc main_arg0)))
          (colBlock (grid0.coords t) (m ((c : Thread nD τ).loc main_arg0))) :=
    (out_eq c (grid0.coords t) (ms0_0 t) (hs0_0 t) (ms0_1 t) (hs0_1 t) (iblk m c 0 t)).trans
      (by rw [iblk_eq m c t])
  refine ((Cert.KernelIdeal.Value.flushed1_A m c t).trans
    (congrArg ((cfg0.win 1).cut (grid0.coords t)) hout)).trans ?_
  obtain ⟨-, -, e0, e1⟩ := idx_facts t
  refine funext fun (j : S1024x1024.Idx) => ?_
  show k0_pay1 (F := Ideal) (grid0.coords t) _ _ j = dist _ (((cfg0.win 1).blk t).view.emb j)
  refine (congrArg (k0_pay1 (F := Ideal) (grid0.coords t) _ _) (eq_ix2 j)).trans ?_
  exact Block.block_entry _ (grid0.coords t) (j 0) (j 1) _ _
    (by show win0_1.index t (0 : Fin 2) * 1024 + 1 * (j 0).val = _; rw [e0]; omega)
    (by show win0_1.index t (1 : Fin 2) * 1024 + 1 * (j 1).val = _; rw [e1]; omega)

/-- An index of the result is in point t's block iff each coordinate is in the block's range on its axis. -/
theorem mem_blk (t : Fin cfg0.N) (i : S8192x8192.Idx) :
    i ∈ ((cfg0.win 1).blk t).view.set ↔ ∀ a : Fin 2, win0_1.index t a * S1024x1024.size a ≤ (i a).val
      ∧ (i a).val < win0_1.index t a * S1024x1024.size a + S1024x1024.size a := by
  show i ∈ ((View.whole main_v0).slice (win0_1.rect t)).set ↔ _
  rw [View.set_slice_whole, Rect.mem_set_unit]
  exact Iff.rfl

/-- THE COVER: index (r, c) of the result lies in the block of the point with coordinates (r / 1024, c / 1024). -/
theorem cover (i : S8192x8192.Idx) :
    ∃ t : Fin cfg0.N, (cfg0.win 1).flush t = true ∧ i ∈ ((cfg0.win 1).blk t).view.set := by
  have hi0 : (i 0).val < 8192 := (i 0).isLt
  have hi1 : (i 1).val < 8192 := (i 1).isLt
  obtain ⟨t, ht⟩ := idx_onto ⟨(i 0).val / 1024, by omega⟩ ⟨(i 1).val / 1024, by omega⟩
  have q0 : win0_1.index t (0 : Fin 2) = (i 0).val / 1024 := congrFun ht 0
  have q1 : win0_1.index t (1 : Fin 2) = (i 1).val / 1024 := congrFun ht 1
  refine ⟨t, flush0_1 t, ?_⟩
  rw [mem_blk]
  intro a
  match a with
  | ⟨0, _⟩ =>
    show win0_1.index t (0 : Fin 2) * 1024 ≤ (i 0).val ∧ (i 0).val < win0_1.index t (0 : Fin 2) * 1024 + 1024
    omega
  | ⟨1, _⟩ =>
    show win0_1.index t (1 : Fin 2) * 1024 ≤ (i 1).val ∧ (i 1).val < win0_1.index t (1 : Fin 2) * 1024 + 1024
    omega

/-- THE RESULT ARRAY after the run is the matrix of distances of the array of points. -/
theorem final (c : Dev nD) : (dats m 0 c).arrAt 1 cfg0.N = dist (m ((c : Thread nD τ).loc main_arg0)) :=
  (dats m 0 c).arrAt_eq_of_cover 1 (dist (m ((c : Thread nD τ).loc main_arg0))) (fun t _ => flushed_eq m c t) cover

/-- The kernel's run, read: the result at the matrix of distances, the argument unchanged. -/
theorem run : θ_run defs (onTc (τ := τ) (main (F := Ideal))) ⟨m, fun _ => 0, ρ⟩ fun r => ∀ c : Dev nD,
      r.2.mem ((c : Thread nD τ).loc main_v0) = dist (m ((c : Thread nD τ).loc main_arg0))
      ∧ r.2.mem ((c : Thread nD τ).loc main_arg0) = m ((c : Thread nD τ).loc main_arg0) :=
  (θ_run defs _ _).mono (fun r h c => ⟨(h c).1.trans (final m c), (h c).2⟩)
    (Cert.KernelIdeal.Value.run_blocks m ρ)

end Cert.Dist.Value

end
-- ==== Proof.DistRef.lean ====
/-
  The reference program, read one operation at a time at an index (r, c) of its result, computes the distance
  function of DistSpec: its row sums of squares are the squared norms (a sum started from 0), its product of the
  array with its own transpose is the Gram matrix, the two broadcasts of the norms read row r's and row c's, and
  the clamp, comparison, guarded square root and final selection are those of the specification.
-/
import proofs.«114550_j36541581754617_2_alg».proof.Proof.Gen.ReferenceIdeal.Read
import proofs.«114550_j36541581754617_2_alg».proof.Proof.DistSpec

noncomputable section

namespace Cert.Dist.Ref

open Cert.ReferenceIdeal Cert.ReferenceIdeal.Read Idealize.ShloMosaic Idealize.ShloMosaic.ValueIdx Cert.Dist

variable (X : (⟨S8192x64, .f32⟩ : BufTy).Contents (Elt Ideal))

/-- The row sums of squares: started from 0, so the squared norm of the row. -/
theorem norms_apply (r : Fin 8192) : val_main_v1 (F := Ideal) X (ix1 r) = sqNorm X r := by
  rw [val_main_v1_apply]
  show Ideal.ofBits .f32 0x00000000#32 + _ = _
  rw [Ideal.ofBits_zero_f32, zero_add]
  unfold sqNorm
  refine Finset.sum_congr rfl fun k _ => ?_
  have e : idx_main_v1 (ix1 r) k = ix2 r k :=
    funext fun a => Fin.ext (by match a with | ⟨0, _⟩ => rfl | ⟨1, _⟩ => rfl)
  rw [val_main_v0_apply, e]
  rfl

/-- The product of the array with its transpose: the Gram entry of rows r and c. -/
theorem gram_apply (r c : Fin 8192) : val_main_v2 (F := Ideal) X (ix2 r c) = gram X r c := by
  rw [val_main_v2_apply]
  unfold gram
  refine Finset.sum_congr rfl fun k _ => ?_
  have el : lidx_main_v2 (ix2 r c) k = ix2 r k :=
    funext fun a => Fin.ext (by match a with | ⟨0, _⟩ => rfl | ⟨1, _⟩ => rfl)
  have er : ridx_main_v2 (ix2 r c) k = ix2 c k :=
    funext fun a => Fin.ext (by match a with | ⟨0, _⟩ => rfl | ⟨1, _⟩ => rfl)
  rw [el, er]

/-- The norms as a column, broadcast along the rows: at (r, c), row r's. -/
theorem normRows_apply (r c : Fin 8192) : val_main_v5 (F := Ideal) X (ix2 r c) = sqNorm X r := by
  have e : idx_main_v3 (idx_main_v5 (ix2 r c)) = ix1 r :=
    funext fun a => Fin.ext (by match a with | ⟨0, _⟩ => rfl)
  rw [val_main_v5_apply, val_main_v3_apply, e, norms_apply]

/-- The norms as a row, broadcast along the columns: at (r, c), row c's. -/
theorem normCols_apply (r c : Fin 8192) : val_main_v6 (F := Ideal) X (ix2 r c) = sqNorm X c := by
  have e : idx_main_v4 (idx_main_v6 (ix2 r c)) = ix1 c :=
    funext fun a => Fin.ext (by match a with | ⟨0, _⟩ => rfl)
  rw [val_main_v6_apply, val_main_v4_apply, e, norms_apply]

/-- The constant splats. -/
theorem twos_apply (i : S8192x8192.Idx) : val_main_v8 (F := Ideal) i = two := by rw [val_main_v8_apply]; rfl
theorem zerosA_apply (i : S8192x8192.Idx) : val_main_v11 (F := Ideal) i = zero := by rw [val_main_v11_apply]; rfl
theorem zerosB_apply (i : S8192x8192.Idx) : val_main_v13 (F := Ideal) i = zero := by rw [val_main_v13_apply]; rfl
theorem ones_apply (i : S8192x8192.Idx) : val_main_call0_v1 (F := Ideal) i = one := by rw [val_main_call0_v1_apply]; rfl
theorem zerosC_apply (i : S8192x8192.Idx) : val_main_call1_v1 (F := Ideal) i = zero := by rw [val_main_call1_v1_apply]; rfl

/-- THE REFERENCE'S RESULT is the matrix of distances of DistSpec. -/
theorem result_eq : val_main_v17 (F := Ideal) X = dist X := by
  funext i
  obtain ⟨r, c, rfl⟩ : ∃ (r c : Fin 8192), i = ix2 r c := ⟨i 0, i 1, eq_ix2 i⟩
  rw [val_main_v17_apply, val_main_v16_apply, val_main_v15_apply, val_main_v14_apply, val_main_v12_apply,
    val_main_v10_apply, val_main_v7_apply, val_main_v9_apply, normRows_apply, normCols_apply, twos_apply, gram_apply,
    zerosA_apply, zerosB_apply, ones_apply, zerosC_apply]
  rfl

end Cert.Dist.Ref

end
-- ==== Proof.lean ====
/-
  The kernel computes the matrix of pairwise Euclidean distances d(r, c) = ‖x_r − x_c‖ of the 8192 rows of a
  [8192, 64] array through the Gram identity ‖x_r − x_c‖² = ‖x_r‖² + ‖x_c‖² − 2⟨x_r, x_c⟩, in 1024 × 1024 blocks
  over an 8 × 8 grid, and stores 0 on the diagonal r = c; the reference computes the same formula on whole arrays,
  with no special case on the diagonal.

  Over the extended reals the two agree at every index:
    * off the diagonal both are the guarded square root of max(‖x_r‖² + ‖x_c‖² − 2⟨x_r, x_c⟩, 0), the same sums of
      the same 64 products (a block's rows are rows of the array; a product accumulated into zeros and a sum started
      from zero are the plain sums);
    * on the diagonal the squared norm and the Gram entry are one sum s, so the reference's value is the guarded
      root of max(s + s − 2s, 0) = 0, which is 0: the kernel's stored 0 (DistSpec, the diagonal law — it holds at
      every extended real s, so the equality needs no finiteness of the input).
  The kernel's result array is assembled from its blocks in DistValue; the reference's result is read one
  operation at a time in DistRef; both are the function Cert.Dist.dist of the argument array.
  The idealization rewrote no operation of the kernel, so that claim is trivial.
-/
import proofs.«114550_j36541581754617_2_alg».proof.Defs
import proofs.«114550_j36541581754617_2_alg».proof.Proof.Gen.Kernel
import proofs.«114550_j36541581754617_2_alg».proof.Proof.Gen.Kernel.Skeleton
import proofs.«114550_j36541581754617_2_alg».proof.Proof.Gen.Kernel.Launch
import proofs.«114550_j36541581754617_2_alg».proof.Proof.Gen.Kernel.Points
import proofs.«114550_j36541581754617_2_alg».proof.Proof.Gen.Kernel.Frame
import proofs.«114550_j36541581754617_2_alg».proof.Proof.Gen.KernelIdeal
import proofs.«114550_j36541581754617_2_alg».proof.Proof.Gen.KernelIdeal.Skeleton
import proofs.«114550_j36541581754617_2_alg».proof.Proof.Gen.KernelIdeal.Launch
import proofs.«114550_j36541581754617_2_alg».proof.Proof.Gen.KernelIdeal.Points
import proofs.«114550_j36541581754617_2_alg».proof.Proof.Gen.KernelIdeal.Frame
import proofs.«114550_j36541581754617_2_alg».proof.Proof.Gen.ReferenceIdeal
import proofs.«114550_j36541581754617_2_alg».proof.Proof.Gen.Pre_finite_inputs
import proofs.«114550_j36541581754617_2_alg».proof.Proof.Gen.KernelIdeal.Value
import proofs.«114550_j36541581754617_2_alg».proof.Proof.Gen.ReferenceIdeal.Run
import proofs.«114550_j36541581754617_2_alg».proof.Proof.Gen.ReferenceIdeal.Read
import proofs.«114550_j36541581754617_2_alg».proof.Proof.DistValue
import proofs.«114550_j36541581754617_2_alg».proof.Proof.DistRef
import Idealize.ShloMosaic.Adequacy
import Idealize.ShloMosaic.Init

noncomputable section

namespace Cert.Proof

open Idealize.ShloMosaic Idealize.SL.Sem

/-- The kernel as printed runs and leaves its argument unchanged. -/
theorem frame_kernel : Cert.frame_Kernel := fun m ρ _ => Cert.Kernel.Gen.frame m ρ

/-- So does the kernel read over the extended reals. -/
theorem frame_kernelIdeal : Cert.frame_KernelIdeal := fun m ρ _ => Cert.KernelIdeal.Gen.frame m ρ

/-- The reference runs and leaves its argument unchanged: its run, with the result's value dropped. -/
theorem frame_referenceIdeal : Cert.frame_ReferenceIdeal := fun m ρ _ =>
  (θ_run Cert.ReferenceIdeal.defs _ _).mono (fun _ h c => (h c).2) (Cert.ReferenceIdeal.Value.run (F := Ideal) m ρ)

/-- No operation of the kernel was rewritten: nothing to state. -/
theorem preserves : Cert.preserves_Kernel_KernelIdeal := trivial

/-- Both programs, from memories that agree on the array of points, end with the matrix of distances of that array. -/
theorem algebraic : Cert.algebraic_KernelIdeal_ReferenceIdeal := by
  intro m ρ m' ρ' _ hagree
  refine ⟨fun c => Cert.Dist.dist (m ((c.tc : Thread Cert.KernelIdeal.nD Cert.KernelIdeal.τ).loc Cert.KernelIdeal.main_arg0)),
    Cert.Dist.Value.run m ρ, ?_⟩
  refine (θ_run Cert.ReferenceIdeal.defs _ _).mono (fun _ h c => ⟨(h c).1.trans ?_, (h c).2⟩)
    (Cert.ReferenceIdeal.Value.run (F := Ideal) m' ρ')
  rw [Cert.ReferenceIdeal.Read.val_main_v17_eq, Cert.Dist.Ref.result_eq, hagree c]

theorem claim : Cert.Claim :=
  ⟨Cert.Kernel.Gen.facts, Cert.KernelIdeal.Gen.facts, Cert.ReferenceIdeal.Gen.facts, Cert.Pre_finite_inputs.Gen.facts,
    frame_kernel, frame_kernelIdeal, frame_referenceIdeal, preserves, algebraic⟩

end Cert.Proof

end
